-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : IVec S2x200000 32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000x128 : Shape := ⟨2, ![50000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S8000x64 : Shape := ⟨2, ![8000, 64]⟩
abbrev S8000x1 : Shape := ⟨2, ![8000, 1]⟩
abbrev S8000 : Shape := ⟨1, ![8000]⟩

abbrev nBuf : Space → Nat
  | .hbm => 109
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S50000, .i32⟩
  | .hbm, ⟨12, _⟩ => ⟨S1650000, .i32⟩
  | .hbm, ⟨13, _⟩ => ⟨S1650000, .i32⟩
  | .hbm, ⟨14, _⟩ => ⟨S_, .f32⟩
  | .hbm, ⟨15, _⟩ => ⟨S1650000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S1650000, .i32⟩
  | .hbm, ⟨30, _⟩ => ⟨S1650000, .i1⟩
  | .hbm, ⟨31, _⟩ => ⟨S_, .i32⟩
  | .hbm, ⟨32, _⟩ => ⟨S1650000, .i32⟩
  | .hbm, ⟨33, _⟩ => ⟨S1650000, .i32⟩
  | .hbm, ⟨34, _⟩ => ⟨S1650000, .i32⟩
  | .hbm, ⟨35, _⟩ => ⟨S1650000x1, .i32⟩
  | .hbm, ⟨36, _⟩ => ⟨S1650000, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000, .f32⟩
  | .hbm, ⟨46, _⟩ => ⟨S1650000, .f32⟩
  | .hbm, ⟨47, _⟩ => ⟨S50000x128, .f32⟩
  | .hbm, ⟨48, _⟩ => ⟨S_, .i32⟩
  | .hbm, ⟨49, _⟩ => ⟨S1650000, .i32⟩
  | .hbm, ⟨50, _⟩ => ⟨S1650000, .i1⟩
  | .hbm, ⟨51, _⟩ => ⟨S_, .i32⟩
  | .hbm, ⟨52, _⟩ => ⟨S1650000, .i32⟩
  | .hbm, ⟨53, _⟩ => ⟨S1650000, .i32⟩
  | .hbm, ⟨54, _⟩ => ⟨S1650000, .i32⟩
  | .hbm, ⟨55, _⟩ => ⟨S1650000x1, .i32⟩
  | .hbm, ⟨56, _⟩ => ⟨S1650000x128, .f32⟩
  | .hbm, ⟨57, _⟩ => ⟨S1650000x1, .f32⟩
  | .hbm, ⟨58, _⟩ => ⟨S1650000x128, .f32⟩
  | .hbm, ⟨59, _⟩ => ⟨S1650000x128, .f32⟩
  | .hbm, ⟨60, _⟩ => ⟨S_, .f32⟩
  | .hbm, ⟨61, _⟩ => ⟨S50000x128, .f32⟩
  | .hbm, ⟨62, _⟩ => ⟨S1650000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x64, .f32⟩
  | .hbm, ⟨67, _⟩ => ⟨S_, .i32⟩
  | .hbm, ⟨68, _⟩ => ⟨S1650000, .i32⟩
  | .hbm, ⟨69, _⟩ => ⟨S1650000, .i1⟩
  | .hbm, ⟨70, _⟩ => ⟨S_, .i32⟩
  | .hbm, ⟨71, _⟩ => ⟨S1650000, .i32⟩
  | .hbm, ⟨72, _⟩ => ⟨S1650000, .i32⟩
  | .hbm, ⟨73, _⟩ => ⟨S1650000, .i32⟩
  | .hbm, ⟨74, _⟩ => ⟨S1650000x1, .i32⟩
  | .hbm, ⟨75, _⟩ => ⟨S1650000x64, .f32⟩
  | .hbm, ⟨76, _⟩ => ⟨S1650000x1, .f32⟩
  | .hbm, ⟨77, _⟩ => ⟨S1650000x64, .f32⟩
  | .hbm, ⟨78, _⟩ => ⟨S1650000x64, .f32⟩
  | .hbm, ⟨79, _⟩ => ⟨S_, .f32⟩
  | .hbm, ⟨80, _⟩ => ⟨S50000x64, .f32⟩
  | .hbm, ⟨81, _⟩ => ⟨S1650000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S1x200000, .i32⟩
  | .hbm, ⟨86, _⟩ => ⟨S200000, .i32⟩
  | .hbm, ⟨87, _⟩ => ⟨S_, .i32⟩
  | .hbm, ⟨88, _⟩ => ⟨S200000, .i32⟩
  | .hbm, ⟨89, _⟩ => ⟨S200000, .i1⟩
  | .hbm, ⟨90, _⟩ => ⟨S_, .i32⟩
  | .hbm, ⟨91, _⟩ => ⟨S200000, .i32⟩
  | .hbm, ⟨92, _⟩ => ⟨S200000, .i32⟩
  | .hbm, ⟨93, _⟩ => ⟨S200000, .i32⟩
  | .hbm, ⟨94, _⟩ => ⟨S200000x1, .i32⟩
  | .hbm, ⟨95, _⟩ => ⟨S200000x64, .f32⟩
  | .hbm, ⟨96, _⟩ => ⟨S1x200000, .i32⟩
  | .hbm, ⟨97, _⟩ => ⟨S200000, .i32⟩
  | .hbm, ⟨98, _⟩ => ⟨S_, .i32⟩
  | .hbm, ⟨99, _⟩ => ⟨S200000, .i32⟩
  | .hbm, ⟨100, _⟩ => ⟨S200000, .i1⟩
  | .hbm, ⟨101, _⟩ => ⟨S_, .i32⟩
  | .hbm, ⟨102, _⟩ => ⟨S200000, .i32⟩
  | .hbm, ⟨103, _⟩ => ⟨S200000, .i32⟩
  | .hbm, ⟨104, _⟩ => ⟨S200000, .i32⟩
  | .hbm, ⟨105, _⟩ => ⟨S200000x1, .i32⟩
  | .hbm, ⟨106, _⟩ => ⟨S200000x64, .f32⟩
  | .hbm, ⟨107, _⟩ => ⟨S200000x1, .f32⟩
  | .hbm, ⟨108, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S8000x1, .f32⟩
  | .local _ .vmem, ⟨25, _⟩ => ⟨S8000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_14 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S200000x1_S200000 : S200000x1.ShapeCasts S200000
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  gather_S50000x64_S200000x1_S200000x64_1_0_n_n_0_1_164_wf : GatherDims.WF S50000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S200000x64.size a
  hwx4_0 : ∀ i : grid4.Coords, EltTy.bits .f32 = 32 ∨ (Rect.block (s := S200000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S200000x64.size a
  hwx4_1 : ∀ i : grid4.Coords, EltTy.bits .f32 = 32 ∨ (Rect.block (s := S200000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S200000x1.size a
  hwx4_2 : ∀ i : grid4.Coords, EltTy.bits .f32 = 32 ∨ (Rect.block (s := S200000x1) S8000x1.size (cc4_transform_2 i) (hinb4_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S8000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 155
  | .vmem => 0
  | .smem => 0
  | _ => 0

abbrev hbmTy0_0 (i : Nat) : BufTy := match i % 128 with
  | 0 => ⟨S50000x128, .f32⟩
  | 1 => ⟨S2x1600000, .i32⟩
  | 2 => ⟨S2x200000, .i32⟩
  | 3 => ⟨S128x128, .f32⟩
  | 4 => ⟨S128, .f32⟩
  | 5 => ⟨S128x64, .f32⟩
  | 6 => ⟨S64, .f32⟩
  | 7 => ⟨S50000x128, .f32⟩
  | 8 => ⟨S1x1600000, .i32⟩
  | 9 => ⟨S1600000, .i32⟩
  | 10 => ⟨S1x1600000, .i32⟩
  | 11 => ⟨S1600000, .i32⟩
  | 12 => ⟨S50000, .i32⟩
  | 13 => ⟨S1650000, .i32⟩
  | 14 => ⟨S1650000, .i32⟩
  | 15 => ⟨S_, .f32⟩
  | 16 => ⟨S1650000, .f32⟩
  | 17 => ⟨S_, .f32⟩
  | 18 => ⟨S50000, .f32⟩
  | 19 => ⟨S1650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S1650000, .i32⟩
  | 31 => ⟨S1650000, .i1⟩
  | 32 => ⟨S_, .i32⟩
  | 33 => ⟨S1650000, .i32⟩
  | 34 => ⟨S1650000, .i32⟩
  | 35 => ⟨S1650000, .i32⟩
  | 36 => ⟨S1650000x1, .i32⟩
  | 37 => ⟨S1650000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S1650000, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000x128, .f32⟩
  | 57 => ⟨S1650000x1, .f32⟩
  | 58 => ⟨S1650000x128, .f32⟩
  | 59 => ⟨S1650000x128, .f32⟩
  | 60 => ⟨S_, .f32⟩
  | 61 => ⟨S50000x128, .f32⟩
  | 62 => ⟨S1650000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x64, .f32⟩
  | 71 => ⟨S1x1600000, .i32⟩
  | 72 => ⟨S1600000, .i32⟩
  | 73 => ⟨S1x1600000, .i32⟩
  | 74 => ⟨S1600000, .i32⟩
  | 75 => ⟨S50000, .i32⟩
  | 76 => ⟨S1650000, .i32⟩
  | 77 => ⟨S1650000, .i32⟩
  | 78 => ⟨S_, .f32⟩
  | 79 => ⟨S1650000, .f32⟩
  | 80 => ⟨S_, .f32⟩
  | 81 => ⟨S50000, .f32⟩
  | 82 => ⟨S1650000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S1650000, .i32⟩
  | 94 => ⟨S1650000, .i1⟩
  | 95 => ⟨S_, .i32⟩
  | 96 => ⟨S1650000, .i32⟩
  | 97 => ⟨S1650000, .i32⟩
  | 98 => ⟨S1650000, .i32⟩
  | 99 => ⟨S1650000x1, .i32⟩
  | 100 => ⟨S1650000, .f32⟩
  | 101 => ⟨S_, .i32⟩
  | 102 => ⟨S1650000, .i32⟩
  | 103 => ⟨S1650000, .i1⟩
  | 104 => ⟨S_, .i32⟩
  | 105 => ⟨S1650000, .i32⟩
  | 106 => ⟨S1650000, .i32⟩
  | 107 => ⟨S1650000, .i32⟩
  | 108 => ⟨S1650000x1, .i32⟩
  | 109 => ⟨S1650000, .f32⟩
  | 110 => ⟨S1650000, .f32⟩
  | 111 => ⟨S_, .i32⟩
  | 112 => ⟨S1650000, .i32⟩
  | 113 => ⟨S1650000, .i1⟩
  | 114 => ⟨S_, .i32⟩
  | 115 => ⟨S1650000, .i32⟩
  | 116 => ⟨S1650000, .i32⟩
  | 117 => ⟨S1650000, .i32⟩
  | 118 => ⟨S1650000x1, .i32⟩
  | 119 => ⟨S1650000x64, .f32⟩
  | 120 => ⟨S1650000x1, .f32⟩
  | 121 => ⟨S1650000x64, .f32⟩
  | 122 => ⟨S1650000x64, .f32⟩
  | 123 => ⟨S_, .f32⟩
  | 124 => ⟨S50000x64, .f32⟩
  | 125 => ⟨S1650000x1, .i32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S1x200000, .i32⟩
  | 3 => ⟨S200000, .i32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S200000x64, .f32⟩
  | 13 => ⟨S1x200000, .i32⟩
  | 14 => ⟨S200000, .i32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x64, .f32⟩
  | 24 => ⟨S200000x64, .f32⟩
  | 25 => ⟨S_, .f32⟩
  | 26 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_20 : Ref sig .tc := ⟨.hbm, 132, rfl⟩
abbrev main_v97 : Ref sig .tc := ⟨.hbm, 133, rfl⟩
abbrev main_v98 : Ref sig .tc := ⟨.hbm, 134, rfl⟩
abbrev main_c_21 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_c_23 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  gather_S50000x64_S200000x1_S200000x64_1_0_n_n_0_1_164_wf : GatherDims.WF S50000x64 S200000x1 S200000x64 [1] [0] [] [0] [] 1 ![1, 64]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def gather_S50000x64_S200000x1_S200000x64_1_0_n_n_0_1_164 : GatherDims S50000x64 S200000x1 S200000x64 where
  offsetDims := [1]
  collapsedSliceDims := [0]
  operandBatchingDims := []
  startIndicesBatchingDims := []
  startIndexMap := [0]
  indexVectorDim := 1
  sliceSizes := ![1, 64]
  wf := gather_S50000x64_S200000x1_S200000x64_1_0_n_n_0_1_164_wf

class Facts : Prop extends Facts₀ where

variable [Facts]
-- ==== Proof.Spec.lean ====
/-
  The common value of the two programs, stage by stage, as functions of arrays.

  A two-layer graph convolution followed by an edge score. With E the 1 600 000 listed edges (a source row and a target
  row of node numbers) extended by one self loop per node (1 650 000 edges in all):
    deg v     = the number of edges whose target is v (a sum of ones scattered onto the targets),
    dinv v    = deg v ^ (-1/2) where deg v > 0, and 0 elsewhere,
    norm e    = dinv (source e) · dinv (target e),
    agg L v   = the sum over the edges e with target v of L (source e) · norm e        (row by row, every column),
    hidden    = max (agg (x · W₁) + b₁, 0),
    z         = agg (hidden · W₂) + b₂,
    out q     = the sum over the 64 columns k of z (a q) k · z (b q) k                  for the q-th scored pair (a q, b q).
  Every function below is the exact composite of host operations by which the reference computes that stage (a node
  number below zero counts from the end, as the gather's index arithmetic spells it). The dense stages — the two
  matrix products, the two bias additions (the first clamped at zero) and the row sums of the edge score — are the ones
  the kernel computes block by block on the TensorCore; the edge stages it computes by the same host operations.
-/
import proofs.«135281_j51960514347273_1_alg».proof.Proof.Gen.ReferenceIdeal

noncomputable section

namespace Cert.Spec

open Cert.ReferenceIdeal Cert.ReferenceIdeal.Gen Idealize.ShloMosaic Idealize.ShloMosaic.TcCoe Idealize.SL.Sem Idealize.ShloMosaic.StableHlo

variable {F : FTy → Type} [FloatOps F]

/-- The sources of all edges: the edge list's first row, then every node once (the self loops). -/
def srcAll (e : (⟨S2x1600000, .i32⟩ : BufTy).Contents (Elt F)) : (⟨S1650000, .i32⟩ : BufTy).Contents (Elt F) :=
  concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0

/-- The targets of all edges: the edge list's second row, then every node once. -/
def dstAll (e : (⟨S2x1600000, .i32⟩ : BufTy).Contents (Elt F)) : (⟨S1650000, .i32⟩ : BufTy).Contents (Elt F) :=
  concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0

/-- A node number below zero counts from the end: v + 50000 where v < 0, v elsewhere. -/
def fromEnd (v : (⟨S1650000, .i32⟩ : BufTy).Contents (Elt F)) : (⟨S1650000, .i32⟩ : BufTy).Contents (Elt F) :=
  select (cmpi .slt v (broadcastInDim S1650000 ![] bcast_S_S1650000 (constantI S_ 32 0#32))) (addi v (broadcastInDim S1650000 ![] bcast_S_S1650000 (constantI S_ 32 50000#32))) v

/-- The in-degree of every node, self loop included: ones summed onto the targets. -/
def deg (e : (⟨S2x1600000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 (dstAll e)) (broadcastInDim S1650000 ![] bcast_S_S1650000 (constant S_ .f32 0x3F800000#32))

/-- deg ^ (-1/2) where the degree is positive, zero elsewhere. -/
def dinv (e : (⟨S2x1600000, .i32⟩ : BufTy).Contents (Elt F)) : (⟨S50000, .f32⟩ : BufTy).Contents (Elt F) :=
  select (cmpf (F := F) .ogt (deg e) (broadcastInDim S50000 ![] bcast_S_S50000 (constant S_ .f32 0x00000000#32))) (Host.rsqrt (deg e)) (broadcastInDim S50000 ![] bcast_S_S50000 (id (constant S_ .f32 0x00000000#32)))

/-- The weight of every edge: dinv at its source times dinv at its target. -/
def norm (e : (⟨S2x1600000, .i32⟩ : BufTy).Contents (Elt F)) : (⟨S1650000, .f32⟩ : BufTy).Contents (Elt F) :=
  mulf (Host.gather gather_S50000_S1650000x1_S1650000_n_0_n_n_0_1_1 (dinv e) (broadcastInDim S1650000x1 ![0] bcast_S1650000_S1650000x1_0 (fromEnd (srcAll e)))) (Host.gather gather_S50000_S1650000x1_S1650000_n_0_n_n_0_1_1 (dinv e) (broadcastInDim S1650000x1 ![0] bcast_S1650000_S1650000x1_0 (fromEnd (dstAll e))))

/-- Message passing on 128 columns: every edge carries its source's row, scaled by the edge's weight, onto its target. -/
def agg128 (lin : (⟨S50000x128, .f32⟩ : BufTy).Contents (Elt F)) (e : (⟨S2x1600000, .i32⟩ : BufTy).Contents (Elt F)) : (⟨S50000x128, .f32⟩ : BufTy).Contents (Elt F) :=
  Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 (dstAll e)) (mulf (Host.gather gather_S50000x128_S1650000x1_S1650000x128_1_0_n_n_0_1_1128 lin (broadcastInDim S1650000x1 ![0] bcast_S1650000_S1650000x1_0 (fromEnd (srcAll e)))) (broadcastInDim S1650000x128 ![0, 1] bcast_S1650000x1_S1650000x128_0_1 (broadcastInDim S1650000x1 ![0] bcast_S1650000_S1650000x1_0 (norm e))))

/-- Message passing on 64 columns. -/
def agg64 (lin : (⟨S50000x64, .f32⟩ : BufTy).Contents (Elt F)) (e : (⟨S2x1600000, .i32⟩ : BufTy).Contents (Elt F)) : (⟨S50000x64, .f32⟩ : BufTy).Contents (Elt F) :=
  Host.scatterAdd scatter_S50000x64_S1650000x1_S1650000x64_1_0_0_1 (broadcastInDim S50000x64 ![] bcast_S_S50000x64 (constant S_ .f32 0x00000000#32)) (broadcastInDim S1650000x1 ![0] bcast_S1650000_S1650000x1_0 (dstAll e)) (mulf (Host.gather gather_S50000x64_S1650000x1_S1650000x64_1_0_n_n_0_1_164 lin (broadcastInDim S1650000x1 ![0] bcast_S1650000_S1650000x1_0 (fromEnd (srcAll e)))) (broadcastInDim S1650000x64 ![0, 1] bcast_S1650000x1_S1650000x64_0_1 (broadcastInDim S1650000x1 ![0] bcast_S1650000_S1650000x1_0 (norm e))))

/-- The first layer's linear map: x · W₁. -/
def lin1 (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- The first layer's output: the bias added to every row, clamped below at zero. -/
def hidden (a : (⟨S50000x128, .f32⟩ : BufTy).Contents (Elt F)) (b : (⟨S128, .f32⟩ : BufTy).Contents (Elt F)) : (⟨S50000x128, .f32⟩ : BufTy).Contents (Elt F) :=
  maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The second layer's linear map: h · W₂. -/
def lin2 (h : (⟨S50000x128, .f32⟩ : BufTy).Contents (Elt F)) (w : (⟨S128x64, .f32⟩ : BufTy).Contents (Elt F)) : (⟨S50000x64, .f32⟩ : BufTy).Contents (Elt F) :=
  Host.dotGeneral dot_S50000x128_S128x64_S50000x64_1_0_0_1_n_n none h w

/-- The node embedding: the bias added to every row. -/
def embed (a : (⟨S50000x64, .f32⟩ : BufTy).Contents (Elt F)) (b : (⟨S64, .f32⟩ : BufTy).Contents (Elt F)) : (⟨S50000x64, .f32⟩ : BufTy).Contents (Elt F) :=
  addf a (broadcastInDim S50000x64 ![0, 1] bcast_S1x64_S50000x64_0_1 (broadcastInDim S1x64 ![1] bcast_S64_S1x64_1 b))

/-- The embeddings of the scored pairs' first nodes. -/
def pick0 (z : (⟨S50000x64, .f32⟩ : BufTy).Contents (Elt F)) (el : (⟨S2x200000, .i32⟩ : BufTy).Contents (Elt F)) : (⟨S200000x64, .f32⟩ : BufTy).Contents (Elt F) :=
  Host.gather gather_S50000x64_S200000x1_S200000x64_1_0_n_n_0_1_164 z (broadcastInDim S200000x1 ![0] bcast_S200000_S200000x1_0 (select (cmpi .slt (shapeCast _ (extractStridedSlice S1x200000 ![0, 0] el slices_S2x200000_S1x200000_0_0) shapeCasts_S1x200000_S200000) (broadcastInDim S200000 ![] bcast_S_S200000 (constantI S_ 32 0#32))) (addi (shapeCast _ (extractStridedSlice S1x200000 ![0, 0] el slices_S2x200000_S1x200000_0_0) shapeCasts_S1x200000_S200000) (broadcastInDim S200000 ![] bcast_S_S200000 (constantI S_ 32 50000#32))) (shapeCast _ (extractStridedSlice S1x200000 ![0, 0] el slices_S2x200000_S1x200000_0_0) shapeCasts_S1x200000_S200000)))

/-- The embeddings of the scored pairs' second nodes. -/
def pick1 (z : (⟨S50000x64, .f32⟩ : BufTy).Contents (Elt F)) (el : (⟨S2x200000, .i32⟩ : BufTy).Contents (Elt F)) : (⟨S200000x64, .f32⟩ : BufTy).Contents (Elt F) :=
  Host.gather gather_S50000x64_S200000x1_S200000x64_1_0_n_n_0_1_164 z (broadcastInDim S200000x1 ![0] bcast_S200000_S200000x1_0 (select (cmpi .slt (shapeCast _ (extractStridedSlice S1x200000 ![1, 0] el slices_S2x200000_S1x200000_1_0) shapeCasts_S1x200000_S200000) (broadcastInDim S200000 ![] bcast_S_S200000 (constantI S_ 32 0#32))) (addi (shapeCast _ (extractStridedSlice S1x200000 ![1, 0] el slices_S2x200000_S1x200000_1_0) shapeCasts_S1x200000_S200000) (broadcastInDim S200000 ![] bcast_S_S200000 (constantI S_ 32 50000#32))) (shapeCast _ (extractStridedSlice S1x200000 ![1, 0] el slices_S2x200000_S1x200000_1_0) shapeCasts_S1x200000_S200000)))

/-- The score of every pair: the inner product of its two embeddings. -/
def score (a b : (⟨S200000x64, .f32⟩ : BufTy).Contents (Elt F)) : (⟨S200000, .f32⟩ : BufTy).Contents (Elt F) :=
  Host.reduceAdd (mulf a b) (constant S_ .f32 0x00000000#32) reducesTo_S200000x64_S200000_d1 h_S_

/-- The node embeddings as a function of the seven arguments. -/
def nodes (x : (⟨S50000x128, .f32⟩ : BufTy).Contents (Elt F)) (e : (⟨S2x1600000, .i32⟩ : BufTy).Contents (Elt F)) (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S50000x64, .f32⟩ : BufTy).Contents (Elt F) :=
  embed (agg64 (lin2 (hidden (agg128 (lin1 x w1) e) b1) w2) e) b2

/-- The whole result as a function of the seven arguments. -/
def out (x : (⟨S50000x128, .f32⟩ : BufTy).Contents (Elt F)) (e : (⟨S2x1600000, .i32⟩ : BufTy).Contents (Elt F)) (el : (⟨S2x200000, .i32⟩ : BufTy).Contents (Elt F)) (w1 : (⟨S128x128, .f32⟩ : BufTy).Contents (Elt F))
    (b1 : (⟨S128, .f32⟩ : BufTy).Contents (Elt F)) (w2 : (⟨S128x64, .f32⟩ : BufTy).Contents (Elt F)) (b2 : (⟨S64, .f32⟩ : BufTy).Contents (Elt F)) : (⟨S200000, .f32⟩ : BufTy).Contents (Elt F) :=
  score (pick0 (nodes x e w1 b1 w2 b2) el) (pick1 (nodes x e w1 b1 w2 b2) el)

end Cert.Spec

end
-- ==== Proof.RefSpec.lean ====
/-
  The reference's result is the specification's function of the arguments: the composed term its run ends at is,
  operation for operation, the composite of the stages of Spec.lean.
-/
import proofs.«135281_j51960514347273_1_alg».proof.Proof.RefRun
import proofs.«135281_j51960514347273_1_alg».proof.Proof.Spec

noncomputable section

namespace Cert.RefSpec

open Cert.ReferenceIdeal Idealize.ShloMosaic Idealize.ShloMosaic.TcCoe Idealize.SL.Sem

variable {F : FTy → Type} [FloatOps F]

set_option maxRecDepth 8192 in
/-- The term the reference's run states for its result is `Spec.out` of the launch contents of the arguments. -/
theorem res_eq (m : (ℓ : Loc nD τ sig) → Buf (Elt F) ℓ) (c : Dev nD) :
    Cert.ReferenceIdeal.ValueP.res_main_v114 m c
      = Cert.Spec.out (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.ValueP.res_main_v114 Cert.Spec.out Cert.Spec.nodes Cert.Spec.score Cert.Spec.pick0 Cert.Spec.pick1 Cert.Spec.embed Cert.Spec.lin2
    Cert.Spec.hidden Cert.Spec.lin1 Cert.Spec.agg64 Cert.Spec.agg128 Cert.Spec.norm Cert.Spec.dinv Cert.Spec.deg Cert.Spec.fromEnd Cert.Spec.dstAll Cert.Spec.srcAll
  rfl

end Cert.RefSpec

end
-- ==== Proof.KRun.lean ====
/-
  The idealized kernel's run with its result named. Every weakly fair execution of the kernel's program terminates
  without a fault, and ends with the result buffer at the contents the last segment boundary gives it — the fold of
  the program's host operations and of its five regions' write-backs from the launch memory — and with the seven
  argument arrays as launched. The program is the list of segments the generated frame module states (host stretches
  and TensorCore regions in order); the launch theorem for such a list is applied to it once more, this time reading
  the result buffer as well as the arguments off the last thread state.
-/
import proofs.«135281_j51960514347273_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v81) = W12 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v81 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Named

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.Lin1.lean ====
/-
  The first dense stage. The kernel computes x · W₁ in ten blocks of 5000 rows: grid point t loads rows
  5000 t … 5000 t + 4999 of x and the whole of W₁, multiplies them on the TensorCore into a zero accumulator, and
  writes the product back as the same rows of the result. Entry (p, q) of block t is the sum over k of
  x (5000 t + p, k) · W₁ (k, q), which is entry (5000 t + p, q) of the host's product of the whole matrices; the ten
  blocks cover all 50000 rows. So the result array ends holding `Spec.lin1` of the two arrays the region finds.
-/
import proofs.«135281_j51960514347273_1_alg».proof.Proof.Gen.KernelIdeal.Frame
import proofs.«135281_j51960514347273_1_alg».proof.Proof.Spec
import proofs.«135281_j51960514347273_1_alg».proof.Proof.LibDotEntry
import Idealize.ShloMosaic.Lib.Pipeline.Value
import Idealize.ShloMosaic.Lib.ValueIdx
import Idealize.ShloMosaic.PureOps.Ideal.Laws

set_option maxRecDepth 16384

noncomputable section

namespace Cert.KernelIdeal.Lin1

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## Where the two products' dimension numbers send an index -/

abbrev DK := Cert.KernelIdeal.dot_S5000x128_S128x128_S5000x128_1_0_0_1_n_n
abbrev DR := Cert.ReferenceIdeal.dot_S50000x128_S128x128_S50000x128_1_0_0_1_n_n

theorem DK_l0 (i : S5000x128.Idx) (q : DK.contr.Idx) : (DK.lhsIdx i q 0).val = (i 0).val := by
  unfold DotDims.lhsIdx
  rw [dif_neg (show ¬(0 : Fin S5000x128.rank) ∈ DK.lhsBatch by decide), dif_pos (show (0 : Fin S5000x128.rank) ∈ DK.lhsNonContracting by decide)]
  rfl
theorem DK_l1 (i : S5000x128.Idx) (q : DK.contr.Idx) : (DK.lhsIdx i q 1).val = (q ⟨0, by decide⟩).val :=
  DK.lhsIdx_val_of_single rfl i q
theorem DK_r0 (i : S5000x128.Idx) (q : DK.contr.Idx) : (DK.rhsIdx i q 0).val = (q ⟨0, by decide⟩).val :=
  DK.rhsIdx_val_of_single rfl i q
theorem DK_r1 (i : S5000x128.Idx) (q : DK.contr.Idx) : (DK.rhsIdx i q 1).val = (i 1).val := by
  unfold DotDims.rhsIdx
  rw [dif_neg (show ¬(1 : Fin S128x128.rank) ∈ DK.rhsBatch by decide), dif_pos (show (1 : Fin S128x128.rank) ∈ DK.rhsNonContracting by decide)]
  rfl

theorem DR_l0 (i : Cert.ReferenceIdeal.S50000x128.Idx) (q : DR.contr.Idx) : (DR.lhsIdx i q 0).val = (i 0).val := by
  unfold DotDims.lhsIdx
  rw [dif_neg (show ¬(0 : Fin Cert.ReferenceIdeal.S50000x128.rank) ∈ DR.lhsBatch by decide), dif_pos (show (0 : Fin Cert.ReferenceIdeal.S50000x128.rank) ∈ DR.lhsNonContracting by decide)]
  rfl
theorem DR_l1 (i : Cert.ReferenceIdeal.S50000x128.Idx) (q : DR.contr.Idx) : (DR.lhsIdx i q 1).val = (q ⟨0, by decide⟩).val :=
  DR.lhsIdx_val_of_single rfl i q
theorem DR_r0 (i : Cert.ReferenceIdeal.S50000x128.Idx) (q : DR.contr.Idx) : (DR.rhsIdx i q 0).val = (q ⟨0, by decide⟩).val :=
  DR.rhsIdx_val_of_single rfl i q
theorem DR_r1 (i : Cert.ReferenceIdeal.S50000x128.Idx) (q : DR.contr.Idx) : (DR.rhsIdx i q 1).val = (i 1).val := by
  unfold DotDims.rhsIdx
  rw [dif_neg (show ¬(1 : Fin Cert.ReferenceIdeal.S128x128.rank) ∈ DR.rhsBatch by decide), dif_pos (show (1 : Fin Cert.ReferenceIdeal.S128x128.rank) ∈ DR.rhsNonContracting by decide)]
  rfl

/-! ## One entry of one block -/

/-- The body's product at entry (p, q) of a block: the sum over k of the row block's (p, k) times the weight's (k, q)
    (rounding the operands to bf16 first is the identity at exact arithmetic). -/
theorem pay_apply (a : Vec Ideal S5000x128 .f32) (w : Vec Ideal S128x128 .f32) (p : Fin 5000) (q : Fin 128) :
    k0_pay1 (F := Ideal) a w (ix2 p q) = ∑ k : Fin 128, a (ix2 p k) * w (ix2 k q) := by
  unfold k0_pay1
  exact Cert.Lib.DotEntry.matmul_zero_ix2 DK rfl rfl DK_l0 DK_l1 DK_r0 DK_r1 (truncf .bf16 a _) (truncf .bf16 w _) p q

/-- A block of rows `r … r + 4999` of `X0` multiplied by the whole of `X3` is, entry by entry, the host's product of
    `X0` by `X3` at the same rows. -/
theorem entry (X0 : (⟨Cert.ReferenceIdeal.S50000x128, .f32⟩ : BufTy).Contents (Elt Ideal)) (X3 : (⟨Cert.ReferenceIdeal.S128x128, .f32⟩ : BufTy).Contents (Elt Ideal))
    (a : Vec Ideal S5000x128 .f32) (w : Vec Ideal S128x128 .f32) (r : Nat)
    (ha : ∀ (p : Fin 5000) (k : Fin 128) (h : r + p.val < 50000), a (ix2 p k) = X0 (ix2 ⟨r + p.val, h⟩ k))
    (hw : ∀ (k q : Fin 128), w (ix2 k q) = X3 (ix2 k q))
    (j : S5000x128.Idx) (i : Cert.ReferenceIdeal.S50000x128.Idx) (hi0 : (i 0).val = r + (j 0).val) (hi1 : (i 1).val = (j 1).val) :
    k0_pay1 (F := Ideal) a w j = Cert.Spec.lin1 (F := Ideal) X0 X3 i := by
  obtain ⟨p, q, rfl⟩ : ∃ (p : Fin 5000) (q : Fin 128), j = ix2 p q := ⟨j 0, j 1, eq_ix2 j⟩
  have hp : r + p.val < 50000 := by have h50 : (i 0).val < 50000 := (i 0).isLt; have e : (i 0).val = r + p.val := hi0; omega
  obtain rfl : i = ix2 ⟨r + p.val, hp⟩ q := funext fun d => Fin.ext (by
    match d with
    | ⟨0, _⟩ => exact hi0
    | ⟨1, _⟩ => exact hi1)
  rw [pay_apply]
  unfold Cert.Spec.lin1
  rw [Cert.Lib.DotEntry.dotGeneral_ix2 DR rfl rfl DR_l0 DR_l1 DR_r0 DR_r1 X0 X3 ⟨r + p.val, hp⟩ q]
  exact Finset.sum_congr rfl fun k _ => by rw [ha p k hp, hw k q]

/-! ## From the blocks to the array -/

variable (V : (c : Dev nD) → (b : Ref sig .tc) → Buf (Elt Ideal) ((c : Thread nD τ).loc b))

/-- The three windows' block numbers at a grid point: the row blocks move with the point, the weight stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays the region finds. -/
theorem block_eq (c : Dev nD) (t : Fin cfg0.N) :
    (dat0 V c).flushed 2 t = ((cfg0.win 2).blk t).view.read (Elt Ideal) (Cert.Spec.lin1 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx t
  funext j
  show k0_pay1 (iblk0 V c 0 t) (iblk0 V c 1 t) j = Cert.Spec.lin1 (V c main_arg0) (V c main_arg3) (((cfg0.win 2).blk t).view.emb j)
  refine entry (V c main_arg0) (V c main_arg3) (iblk0 V c 0 t) (iblk0 V c 1 t) (t.val * 5000) ?_ ?_ j (((cfg0.win 2).blk t).view.emb j) ?_ ?_
  · intro p k h
    show V c main_arg0 (((cfg0.win 0).blk t).view.emb (ix2 p k)) = _
    refine congrArg (V c main_arg0) (funext fun d => Fin.ext ?_)
    match d with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · intro k q
    show V c main_arg3 (((cfg0.win 1).blk t).view.emb (ix2 k q)) = _
    refine congrArg (V c main_arg3) (funext fun d => Fin.ext ?_)
    match d with
    | ⟨0, _⟩ => show win0_1.index t (0 : Fin 2) * 128 + 1 * k.val = k.val; rw [e10]; omega
    | ⟨1, _⟩ => show win0_1.index t (1 : Fin 2) * 128 + 1 * q.val = q.val; rw [e11]; omega
  · show win0_2.index t (0 : Fin 2) * 5000 + 1 * (j 0).val = t.val * 5000 + (j 0).val; rw [e20]; omega
  · show win0_2.index t (1 : Fin 2) * 128 + 1 * (j 1).val = (j 1).val; rw [e21]; omega

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row is in the block of the point numbered by the row's quotient by 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, e20, e21⟩ := idx t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e20]; omega
  | ⟨1, _⟩ => show win0_2.index t (1 : Fin 2) * 128 ≤ (i 1).val ∧ (i 1).val < win0_2.index t (1 : Fin 2) * 128 + 128; rw [e21]; omega

/-- The result array after the region: the product of the two arrays the region finds. -/
theorem final (c : Dev nD) : (dat0 V c).arrAt 2 cfg0.N = Cert.Spec.lin1 (F := Ideal) (V c main_arg0) (V c main_arg3) :=
  (dat0 V c).arrAt_eq_of_cover 2 (Cert.Spec.lin1 (F := Ideal) (V c main_arg0) (V c main_arg3)) (fun t _ => block_eq V c t) cover

end Cert.KernelIdeal.Lin1

end
-- ==== Proof.Lin2.lean ====
/-
  The second dense stage. The kernel computes h · W₂ in ten blocks of 5000 rows: grid point t loads rows
  5000 t … 5000 t + 4999 of the hidden features and the whole of W₂, multiplies them on the TensorCore into a zero
  accumulator, and writes the product back as the same rows of the result. Entry (p, q) of block t is the sum over k
  of h (5000 t + p, k) · W₂ (k, q), which is entry (5000 t + p, q) of the host's product of the whole matrices; the ten
  blocks cover all 50000 rows. So the result array ends holding `Spec.lin2` of the two arrays the region finds.
-/
import proofs.«135281_j51960514347273_1_alg».proof.Proof.Gen.KernelIdeal.Frame
import proofs.«135281_j51960514347273_1_alg».proof.Proof.Spec
import proofs.«135281_j51960514347273_1_alg».proof.Proof.LibDotEntry
import Idealize.ShloMosaic.Lib.Pipeline.Value
import Idealize.ShloMosaic.Lib.ValueIdx
import Idealize.ShloMosaic.PureOps.Ideal.Laws

set_option maxRecDepth 16384

noncomputable section

namespace Cert.KernelIdeal.Lin2

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## Where the two products' dimension numbers send an index -/

abbrev DK := Cert.KernelIdeal.dot_S5000x128_S128x64_S5000x64_1_0_0_1_n_n
abbrev DR := Cert.ReferenceIdeal.dot_S50000x128_S128x64_S50000x64_1_0_0_1_n_n

theorem DK_l0 (i : S5000x64.Idx) (q : DK.contr.Idx) : (DK.lhsIdx i q 0).val = (i 0).val := by
  unfold DotDims.lhsIdx
  rw [dif_neg (show ¬(0 : Fin S5000x128.rank) ∈ DK.lhsBatch by decide), dif_pos (show (0 : Fin S5000x128.rank) ∈ DK.lhsNonContracting by decide)]
  rfl
theorem DK_l1 (i : S5000x64.Idx) (q : DK.contr.Idx) : (DK.lhsIdx i q 1).val = (q ⟨0, by decide⟩).val :=
  DK.lhsIdx_val_of_single rfl i q
theorem DK_r0 (i : S5000x64.Idx) (q : DK.contr.Idx) : (DK.rhsIdx i q 0).val = (q ⟨0, by decide⟩).val :=
  DK.rhsIdx_val_of_single rfl i q
theorem DK_r1 (i : S5000x64.Idx) (q : DK.contr.Idx) : (DK.rhsIdx i q 1).val = (i 1).val := by
  unfold DotDims.rhsIdx
  rw [dif_neg (show ¬(1 : Fin S128x64.rank) ∈ DK.rhsBatch by decide), dif_pos (show (1 : Fin S128x64.rank) ∈ DK.rhsNonContracting by decide)]
  rfl

theorem DR_l0 (i : Cert.ReferenceIdeal.S50000x64.Idx) (q : DR.contr.Idx) : (DR.lhsIdx i q 0).val = (i 0).val := by
  unfold DotDims.lhsIdx
  rw [dif_neg (show ¬(0 : Fin Cert.ReferenceIdeal.S50000x128.rank) ∈ DR.lhsBatch by decide), dif_pos (show (0 : Fin Cert.ReferenceIdeal.S50000x128.rank) ∈ DR.lhsNonContracting by decide)]
  rfl
theorem DR_l1 (i : Cert.ReferenceIdeal.S50000x64.Idx) (q : DR.contr.Idx) : (DR.lhsIdx i q 1).val = (q ⟨0, by decide⟩).val :=
  DR.lhsIdx_val_of_single rfl i q
theorem DR_r0 (i : Cert.ReferenceIdeal.S50000x64.Idx) (q : DR.contr.Idx) : (DR.rhsIdx i q 0).val = (q ⟨0, by decide⟩).val :=
  DR.rhsIdx_val_of_single rfl i q
theorem DR_r1 (i : Cert.ReferenceIdeal.S50000x64.Idx) (q : DR.contr.Idx) : (DR.rhsIdx i q 1).val = (i 1).val := by
  unfold DotDims.rhsIdx
  rw [dif_neg (show ¬(1 : Fin Cert.ReferenceIdeal.S128x64.rank) ∈ DR.rhsBatch by decide), dif_pos (show (1 : Fin Cert.ReferenceIdeal.S128x64.rank) ∈ DR.rhsNonContracting by decide)]
  rfl

/-! ## One entry of one block -/

/-- The body's product at entry (p, q) of a block: the sum over k of the row block's (p, k) times the weight's (k, q)
    (rounding the operands to bf16 first is the identity at exact arithmetic). -/
theorem pay_apply (a : Vec Ideal S5000x128 .f32) (w : Vec Ideal S128x64 .f32) (p : Fin 5000) (q : Fin 64) :
    k2_pay1 (F := Ideal) a w (ix2 p q) = ∑ k : Fin 128, a (ix2 p k) * w (ix2 k q) := by
  unfold k2_pay1
  refine (Cert.Lib.DotEntry.matmul_zero_ix2 DK rfl rfl DK_l0 DK_l1 DK_r0 DK_r1 (truncf .bf16 (shapeCast S5000x128 a _) _) (truncf .bf16 w _) p q).trans ?_
  refine Finset.sum_congr rfl fun k _ => ?_
  show (shapeCast S5000x128 a _) (ix2 p k) * w (ix2 k q) = _
  rw [shapeCast_self]

/-- A block of rows `r … r + 4999` of `X0` multiplied by the whole of `X3` is, entry by entry, the host's product of
    `X0` by `X3` at the same rows. -/
theorem entry (X0 : (⟨Cert.ReferenceIdeal.S50000x128, .f32⟩ : BufTy).Contents (Elt Ideal)) (X3 : (⟨Cert.ReferenceIdeal.S128x64, .f32⟩ : BufTy).Contents (Elt Ideal))
    (a : Vec Ideal S5000x128 .f32) (w : Vec Ideal S128x64 .f32) (r : Nat)
    (ha : ∀ (p : Fin 5000) (k : Fin 128) (h : r + p.val < 50000), a (ix2 p k) = X0 (ix2 ⟨r + p.val, h⟩ k))
    (hw : ∀ (k : Fin 128) (q : Fin 64), w (ix2 k q) = X3 (ix2 k q))
    (j : S5000x64.Idx) (i : Cert.ReferenceIdeal.S50000x64.Idx) (hi0 : (i 0).val = r + (j 0).val) (hi1 : (i 1).val = (j 1).val) :
    k2_pay1 (F := Ideal) a w j = Cert.Spec.lin2 (F := Ideal) X0 X3 i := by
  obtain ⟨p, q, rfl⟩ : ∃ (p : Fin 5000) (q : Fin 64), j = ix2 p q := ⟨j 0, j 1, eq_ix2 j⟩
  have hp : r + p.val < 50000 := by have h50 : (i 0).val < 50000 := (i 0).isLt; have e : (i 0).val = r + p.val := hi0; omega
  obtain rfl : i = ix2 ⟨r + p.val, hp⟩ q := funext fun d => Fin.ext (by
    match d with
    | ⟨0, _⟩ => exact hi0
    | ⟨1, _⟩ => exact hi1)
  rw [pay_apply]
  unfold Cert.Spec.lin2
  rw [Cert.Lib.DotEntry.dotGeneral_ix2 DR rfl rfl DR_l0 DR_l1 DR_r0 DR_r1 X0 X3 ⟨r + p.val, hp⟩ q]
  exact Finset.sum_congr rfl fun k _ => by rw [ha p k hp, hw k q]

/-! ## From the blocks to the array -/

variable (V : (c : Dev nD) → (b : Ref sig .tc) → Buf (Elt Ideal) ((c : Thread nD τ).loc b))

/-- The three windows' block numbers at a grid point: the row blocks move with the point, the weight stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays the region finds. -/
theorem block_eq (c : Dev nD) (t : Fin cfg2.N) :
    (dat2 V c).flushed 2 t = ((cfg2.win 2).blk t).view.read (Elt Ideal) (Cert.Spec.lin2 (F := Ideal) (V c main_v45) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e00, e01, e10, e11, e20, e21⟩ := idx t
  funext j
  show k2_pay1 (iblk2 V c 0 t) (iblk2 V c 1 t) j = Cert.Spec.lin2 (V c main_v45) (V c main_arg5) (((cfg2.win 2).blk t).view.emb j)
  refine entry (V c main_v45) (V c main_arg5) (iblk2 V c 0 t) (iblk2 V c 1 t) (t.val * 5000) ?_ ?_ j (((cfg2.win 2).blk t).view.emb j) ?_ ?_
  · intro p k h
    show V c main_v45 (((cfg2.win 0).blk t).view.emb (ix2 p k)) = _
    refine congrArg (V c main_v45) (funext fun d => Fin.ext ?_)
    match d with
    | ⟨0, _⟩ => show win2_0.index t (0 : Fin 2) * 5000 + 1 * p.val = t.val * 5000 + p.val; rw [e00]; omega
    | ⟨1, _⟩ => show win2_0.index t (1 : Fin 2) * 128 + 1 * k.val = k.val; rw [e01]; omega
  · intro k q
    show V c main_arg5 (((cfg2.win 1).blk t).view.emb (ix2 k q)) = _
    refine congrArg (V c main_arg5) (funext fun d => Fin.ext ?_)
    match d with
    | ⟨0, _⟩ => show win2_1.index t (0 : Fin 2) * 128 + 1 * k.val = k.val; rw [e10]; omega
    | ⟨1, _⟩ => show win2_1.index t (1 : Fin 2) * 64 + 1 * q.val = q.val; rw [e11]; omega
  · show win2_2.index t (0 : Fin 2) * 5000 + 1 * (j 0).val = t.val * 5000 + (j 0).val; rw [e20]; omega
  · show win2_2.index t (1 : Fin 2) * 64 + 1 * (j 1).val = (j 1).val; rw [e21]; omega

/-- An index of the result array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Every row is in the block of the point numbered by the row's quotient by 5000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 5000 := ⟨⟨(i 0).val / 5000, by rw [show cfg2.N = 10 from N_2]; omega⟩, rfl⟩
  obtain ⟨-, -, -, -, e20, e21⟩ := idx t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e20]; omega
  | ⟨1, _⟩ => show win2_2.index t (1 : Fin 2) * 64 ≤ (i 1).val ∧ (i 1).val < win2_2.index t (1 : Fin 2) * 64 + 64; rw [e21]; omega

/-- The result array after the region: the product of the two arrays the region finds. -/
theorem final (c : Dev nD) : (dat2 V c).arrAt 2 cfg2.N = Cert.Spec.lin2 (F := Ideal) (V c main_v45) (V c main_arg5) :=
  (dat2 V c).arrAt_eq_of_cover 2 (Cert.Spec.lin2 (F := Ideal) (V c main_v45) (V c main_arg5)) (fun t _ => block_eq V c t) cover

end Cert.KernelIdeal.Lin2

end
-- ==== Proof.Bias1.lean ====
/-
  The first layer's bias and clamp. The kernel adds the bias row to every row of the aggregated features and clamps
  at zero, in ten blocks of 5000 rows: grid point t loads rows 5000 t … 5000 t + 4999 of the aggregate and the one
  bias row, and writes max (a + b, 0) back as the same rows of the result. Entry (p, q) of block t is
  max (a (5000 t + p, q) + b q, 0), which is the host's `maximum (a + broadcast b, 0)` at (5000 t + p, q).
-/
import proofs.«135281_j51960514347273_1_alg».proof.Proof.Gen.KernelIdeal.Frame
import proofs.«135281_j51960514347273_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias1

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## One entry of one block -/

/-- The body's value at entry (p, q) of a block: the aggregate's entry plus the bias row's q-th entry, clamped at zero. -/
theorem pay_apply (a : Vec Ideal S5000x128 .f32) (b : Vec Ideal S1x128 .f32) (p : Fin 5000) (q : Fin 128) :
    k1_pay1 (F := Ideal) a b (ix2 p q)
      = FloatOps.maximumf (FloatOps.addf (a (ix2 p q)) (b (ix2 (0 : Fin 1) q))) (FloatOps.ofBits (F := Ideal) .f32 0x00000000#32) := by
  unfold k1_pay1
  simp only [maximumf, addf, broadcast, shapeCast_self]
  rw [broadcastTo_1b_ab_apply]

/-- The host's stage at an entry: the same expression of the aggregate's entry and the bias's q-th entry. -/
theorem spec_apply (A : (⟨Cert.ReferenceIdeal.S50000x128, .f32⟩ : BufTy).Contents (Elt Ideal)) (B : (⟨Cert.ReferenceIdeal.S128, .f32⟩ : BufTy).Contents (Elt Ideal))
    (r : Fin 50000) (q : Fin 128) :
    Cert.Spec.hidden (F := Ideal) A B (ix2 r q)
      = FloatOps.maximumf (FloatOps.addf (A (ix2 r q)) (B (ix1 q))) (FloatOps.ofBits (F := Ideal) .f32 0x00000000#32) := by
  unfold Cert.Spec.hidden
  show FloatOps.maximumf (FloatOps.addf (A (ix2 r q)) (broadcastInDim Cert.ReferenceIdeal.S50000x128 ![0, 1] _ (broadcastInDim Cert.ReferenceIdeal.S1x128 ![1] _ B) (ix2 r q)))
      (broadcastInDim Cert.ReferenceIdeal.S50000x128 ![] _ (constant (F := Ideal) Cert.ReferenceIdeal.S_ .f32 0x00000000#32) (ix2 r q)) = _
  rw [broadcastInDim_apply _ _ (broadcastInDim Cert.ReferenceIdeal.S1x128 ![1] _ B) (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)]),
    broadcastInDim_apply _ _ B (ix2 (0 : Fin 1) q) (ix1 q) (fun a => match a with
      | ⟨0, _⟩ => by show q.val = if (128 : Nat) = 1 then 0 else q.val; rw [if_neg (by decide)]),
    broadcastInDim_apply _ _ (constant (F := Ideal) Cert.ReferenceIdeal.S_ .f32 0x00000000#32) (ix2 r q) ix0 (fun a => a.elim0)]
  rfl

/-- A block of rows `r … r + 4999` of `A` with the bias row added and clamped is, entry by entry, the host's stage
    at the same rows. -/
theorem entry (A : (⟨Cert.ReferenceIdeal.S50000x128, .f32⟩ : BufTy).Contents (Elt Ideal)) (B : (⟨Cert.ReferenceIdeal.S128, .f32⟩ : BufTy).Contents (Elt Ideal))
    (a : Vec Ideal S5000x128 .f32) (b : Vec Ideal S1x128 .f32) (r : Nat)
    (ha : ∀ (p : Fin 5000) (q : Fin 128) (h : r + p.val < 50000), a (ix2 p q) = A (ix2 ⟨r + p.val, h⟩ q))
    (hb : ∀ q : Fin 128, b (ix2 (0 : Fin 1) q) = B (ix1 q))
    (j : S5000x128.Idx) (i : Cert.ReferenceIdeal.S50000x128.Idx) (hi0 : (i 0).val = r + (j 0).val) (hi1 : (i 1).val = (j 1).val) :
    k1_pay1 (F := Ideal) a b j = Cert.Spec.hidden (F := Ideal) A B i := by
  obtain ⟨p, q, rfl⟩ : ∃ (p : Fin 5000) (q : Fin 128), j = ix2 p q := ⟨j 0, j 1, eq_ix2 j⟩
  have hp : r + p.val < 50000 := by have h50 : (i 0).val < 50000 := (i 0).isLt; have e : (i 0).val = r + p.val := hi0; omega
  obtain rfl : i = ix2 ⟨r + p.val, hp⟩ q := funext fun d => Fin.ext (by
    match d with
    | ⟨0, _⟩ => exact hi0
    | ⟨1, _⟩ => exact hi1)
  rw [pay_apply, spec_apply, ha p q hp, hb q]

/-! ## From the blocks to the array -/

variable (V : (c : Dev nD) → (b : Ref sig .tc) → Buf (Elt Ideal) ((c : Thread nD τ).loc b))

/-- The three windows' block numbers at a grid point: the row blocks move with the point, the bias row stays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the host's stage of the aggregate the region finds and the bias `B`,
    when the bias row the region finds is `B`. -/
theorem block_eq (c : Dev nD) (B : (⟨Cert.ReferenceIdeal.S128, .f32⟩ : BufTy).Contents (Elt Ideal))
    (hB : ∀ q : Fin 128, (V c main_v44 : S1x128.Idx → Ideal .f32) (ix2 (0 : Fin 1) q) = B (ix1 q)) (t : Fin cfg1.N) :
    (dat1 V c).flushed 2 t = ((cfg1.win 2).blk t).view.read (Elt Ideal) (Cert.Spec.hidden (F := Ideal) (V c main_v43) B) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx t
  funext j
  show k1_pay1 (iblk1 V c 0 t) (iblk1 V c 1 t) j = Cert.Spec.hidden (V c main_v43) B (((cfg1.win 2).blk t).view.emb j)
  refine entry (V c main_v43) B (iblk1 V c 0 t) (iblk1 V c 1 t) (t.val * 5000) ?_ ?_ j (((cfg1.win 2).blk t).view.emb j) ?_ ?_
  · intro p q h
    show V c main_v43 (((cfg1.win 0).blk t).view.emb (ix2 p q)) = _
    refine congrArg (V c main_v43) (funext fun d => Fin.ext ?_)
    match d with
    | ⟨0, _⟩ => show win1_0.index t (0 : Fin 2) * 5000 + 1 * p.val = t.val * 5000 + p.val; rw [e00]; omega
    | ⟨1, _⟩ => show win1_0.index t (1 : Fin 2) * 128 + 1 * q.val = q.val; rw [e01]; omega
  · intro q
    refine Eq.trans ?_ (hB q)
    show V c main_v44 (((cfg1.win 1).blk t).view.emb (ix2 (0 : Fin 1) q)) = _
    refine congrArg (V c main_v44) (funext fun d => Fin.ext ?_)
    match d with
    | ⟨0, _⟩ => show win1_1.index t (0 : Fin 2) * 1 + 1 * 0 = 0; rw [e10]
    | ⟨1, _⟩ => show win1_1.index t (1 : Fin 2) * 128 + 1 * q.val = q.val; rw [e11]; omega
  · show win1_2.index t (0 : Fin 2) * 5000 + 1 * (j 0).val = t.val * 5000 + (j 0).val; rw [e20]; omega
  · show win1_2.index t (1 : Fin 2) * 128 + 1 * (j 1).val = (j 1).val; rw [e21]; omega

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every row is in the block of the point numbered by the row's quotient by 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, e20, e21⟩ := idx t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e20]; omega
  | ⟨1, _⟩ => show win1_2.index t (1 : Fin 2) * 128 ≤ (i 1).val ∧ (i 1).val < win1_2.index t (1 : Fin 2) * 128 + 128; rw [e21]; omega

/-- The result array after the region: the host's stage of the aggregate the region finds and the bias. -/
theorem final (c : Dev nD) (B : (⟨Cert.ReferenceIdeal.S128, .f32⟩ : BufTy).Contents (Elt Ideal))
    (hB : ∀ q : Fin 128, (V c main_v44 : S1x128.Idx → Ideal .f32) (ix2 (0 : Fin 1) q) = B (ix1 q)) :
    (dat1 V c).arrAt 2 cfg1.N = Cert.Spec.hidden (F := Ideal) (V c main_v43) B :=
  (dat1 V c).arrAt_eq_of_cover 2 (Cert.Spec.hidden (F := Ideal) (V c main_v43) B) (fun t _ => block_eq V c B hB t) cover

end Cert.KernelIdeal.Bias1

end
-- ==== Proof.Bias2.lean ====
/-
  The second layer's bias. The kernel adds the bias row to every row of the aggregated features, in ten blocks of
  5000 rows: grid point t loads rows 5000 t … 5000 t + 4999 of the aggregate and the one bias row, and writes a + b
  back as the same rows of the result. Entry (p, q) of block t is a (5000 t + p, q) + b q, which is the host's
  `a + broadcast b` at (5000 t + p, q).
-/
import proofs.«135281_j51960514347273_1_alg».proof.Proof.Gen.KernelIdeal.Frame
import proofs.«135281_j51960514347273_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias2

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## One entry of one block -/

/-- The body's value at entry (p, q) of a block: the aggregate's entry plus the bias row's q-th entry. -/
theorem pay_apply (a : Vec Ideal S5000x64 .f32) (b : Vec Ideal S1x64 .f32) (p : Fin 5000) (q : Fin 64) :
    k3_pay1 (F := Ideal) a b (ix2 p q) = FloatOps.addf (a (ix2 p q)) (b (ix2 (0 : Fin 1) q)) := by
  unfold k3_pay1
  simp only [addf, shapeCast_self]
  rw [broadcastTo_1b_ab_apply]

/-- The host's stage at an entry: the same expression of the aggregate's entry and the bias's q-th entry. -/
theorem spec_apply (A : (⟨Cert.ReferenceIdeal.S50000x64, .f32⟩ : BufTy).Contents (Elt Ideal)) (B : (⟨Cert.ReferenceIdeal.S64, .f32⟩ : BufTy).Contents (Elt Ideal))
    (r : Fin 50000) (q : Fin 64) :
    Cert.Spec.embed (F := Ideal) A B (ix2 r q) = FloatOps.addf (F := Ideal) (φ := .f32) (A (ix2 r q)) (B (ix1 q)) := by
  unfold Cert.Spec.embed
  show FloatOps.addf (F := Ideal) (φ := .f32) (A (ix2 r q)) (broadcastInDim Cert.ReferenceIdeal.S50000x64 ![0, 1] _ (broadcastInDim Cert.ReferenceIdeal.S1x64 ![1] _ B) (ix2 r q)) = _
  rw [broadcastInDim_apply _ _ (broadcastInDim Cert.ReferenceIdeal.S1x64 ![1] _ B) (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)]),
    broadcastInDim_apply _ _ B (ix2 (0 : Fin 1) q) (ix1 q) (fun a => match a with
      | ⟨0, _⟩ => by show q.val = if (64 : Nat) = 1 then 0 else q.val; rw [if_neg (by decide)])]

/-- A block of rows `r … r + 4999` of `A` with the bias row added is, entry by entry, the host's stage
    at the same rows. -/
theorem entry (A : (⟨Cert.ReferenceIdeal.S50000x64, .f32⟩ : BufTy).Contents (Elt Ideal)) (B : (⟨Cert.ReferenceIdeal.S64, .f32⟩ : BufTy).Contents (Elt Ideal))
    (a : Vec Ideal S5000x64 .f32) (b : Vec Ideal S1x64 .f32) (r : Nat)
    (ha : ∀ (p : Fin 5000) (q : Fin 64) (h : r + p.val < 50000), a (ix2 p q) = A (ix2 ⟨r + p.val, h⟩ q))
    (hb : ∀ q : Fin 64, b (ix2 (0 : Fin 1) q) = B (ix1 q))
    (j : S5000x64.Idx) (i : Cert.ReferenceIdeal.S50000x64.Idx) (hi0 : (i 0).val = r + (j 0).val) (hi1 : (i 1).val = (j 1).val) :
    k3_pay1 (F := Ideal) a b j = Cert.Spec.embed (F := Ideal) A B i := by
  obtain ⟨p, q, rfl⟩ : ∃ (p : Fin 5000) (q : Fin 64), j = ix2 p q := ⟨j 0, j 1, eq_ix2 j⟩
  have hp : r + p.val < 50000 := by have h50 : (i 0).val < 50000 := (i 0).isLt; have e : (i 0).val = r + p.val := hi0; omega
  obtain rfl : i = ix2 ⟨r + p.val, hp⟩ q := funext fun d => Fin.ext (by
    match d with
    | ⟨0, _⟩ => exact hi0
    | ⟨1, _⟩ => exact hi1)
  rw [pay_apply, spec_apply, ha p q hp, hb q]

/-! ## From the blocks to the array -/

variable (V : (c : Dev nD) → (b : Ref sig .tc) → Buf (Elt Ideal) ((c : Thread nD τ).loc b))

/-- The three windows' block numbers at a grid point: the row blocks move with the point, the bias row stays. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the host's stage of the aggregate the region finds and the bias `B`,
    when the bias row the region finds is `B`. -/
theorem block_eq (c : Dev nD) (B : (⟨Cert.ReferenceIdeal.S64, .f32⟩ : BufTy).Contents (Elt Ideal))
    (hB : ∀ q : Fin 64, (V c main_v60 : S1x64.Idx → Ideal .f32) (ix2 (0 : Fin 1) q) = B (ix1 q)) (t : Fin cfg3.N) :
    (dat3 V c).flushed 2 t = ((cfg3.win 2).blk t).view.read (Elt Ideal) (Cert.Spec.embed (F := Ideal) (V c main_v59) B) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e00, e01, e10, e11, e20, e21⟩ := idx t
  funext j
  show k3_pay1 (iblk3 V c 0 t) (iblk3 V c 1 t) j = Cert.Spec.embed (V c main_v59) B (((cfg3.win 2).blk t).view.emb j)
  refine entry (V c main_v59) B (iblk3 V c 0 t) (iblk3 V c 1 t) (t.val * 5000) ?_ ?_ j (((cfg3.win 2).blk t).view.emb j) ?_ ?_
  · intro p q h
    show V c main_v59 (((cfg3.win 0).blk t).view.emb (ix2 p q)) = _
    refine congrArg (V c main_v59) (funext fun d => Fin.ext ?_)
    match d with
    | ⟨0, _⟩ => show win3_0.index t (0 : Fin 2) * 5000 + 1 * p.val = t.val * 5000 + p.val; rw [e00]; omega
    | ⟨1, _⟩ => show win3_0.index t (1 : Fin 2) * 64 + 1 * q.val = q.val; rw [e01]; omega
  · intro q
    refine Eq.trans ?_ (hB q)
    show V c main_v60 (((cfg3.win 1).blk t).view.emb (ix2 (0 : Fin 1) q)) = _
    refine congrArg (V c main_v60) (funext fun d => Fin.ext ?_)
    match d with
    | ⟨0, _⟩ => show win3_1.index t (0 : Fin 2) * 1 + 1 * 0 = 0; rw [e10]
    | ⟨1, _⟩ => show win3_1.index t (1 : Fin 2) * 64 + 1 * q.val = q.val; rw [e11]; omega
  · show win3_2.index t (0 : Fin 2) * 5000 + 1 * (j 0).val = t.val * 5000 + (j 0).val; rw [e20]; omega
  · show win3_2.index t (1 : Fin 2) * 64 + 1 * (j 1).val = (j 1).val; rw [e21]; omega

/-- An index of the result array is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- Every row is in the block of the point numbered by the row's quotient by 5000. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 5000 := ⟨⟨(i 0).val / 5000, by rw [show cfg3.N = 10 from N_3]; omega⟩, rfl⟩
  obtain ⟨-, -, -, -, e20, e21⟩ := idx t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e20]; omega
  | ⟨1, _⟩ => show win3_2.index t (1 : Fin 2) * 64 ≤ (i 1).val ∧ (i 1).val < win3_2.index t (1 : Fin 2) * 64 + 64; rw [e21]; omega

/-- The result array after the region: the host's stage of the aggregate the region finds and the bias. -/
theorem final (c : Dev nD) (B : (⟨Cert.ReferenceIdeal.S64, .f32⟩ : BufTy).Contents (Elt Ideal))
    (hB : ∀ q : Fin 64, (V c main_v60 : S1x64.Idx → Ideal .f32) (ix2 (0 : Fin 1) q) = B (ix1 q)) :
    (dat3 V c).arrAt 2 cfg3.N = Cert.Spec.embed (F := Ideal) (V c main_v59) B :=
  (dat3 V c).arrAt_eq_of_cover 2 (Cert.Spec.embed (F := Ideal) (V c main_v59) B) (fun t _ => block_eq V c B hB t) cover

end Cert.KernelIdeal.Bias2

end
-- ==== Proof.Decode.lean ====
/-
  The edge score. The kernel computes, for each scored pair, the inner product of its two 64-entry embeddings, in
  twenty-five blocks of 8000 pairs: grid point t loads rows 8000 t … 8000 t + 7999 of the two gathered embedding
  arrays, multiplies them entry by entry and sums each row over its 64 columns, and writes the sums back as the same
  rows of a one-column result. Row p of block t is the sum over k of a (8000 t + p, k) · b (8000 t + p, k), which
  is the host's row sum (from zero) of the entrywise product at row 8000 t + p; the blocks cover all 200000 rows, and
  the one-column result reshaped to a vector is the host's vector of row sums.
-/
import proofs.«135281_j51960514347273_1_alg».proof.Proof.Gen.KernelIdeal.Frame
import proofs.«135281_j51960514347273_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Decode

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## One row of one block -/

/-- A sum over one axis from the zero word, with the accumulator's side condition spelt as the printed program spells it. -/
theorem rowsum_apply (src : FVec Ideal S8000x64 .f32) (h : S8000x64.Reduces [1] S8000) (hφ : FKind.Formats .f32)
    (hacc : (0x00000000#32 : BitVec 32) = FKind.add.neutral .f32 hφ) (p : Fin 8000) :
    multiReduction .add [1] S8000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src (funext fun d => Fin.ext ?_)
  match d with
  | ⟨0, _⟩ => rfl
  | ⟨1, _⟩ => rfl

/-- The body's value at row p of a block (the one column u): the sum over the 64 columns of the two blocks' products. -/
theorem pay_apply (a b : Vec Ideal S8000x64 .f32) (p : Fin 8000) (u : Fin 1) :
    k4_pay1 (F := Ideal) a b (ix2 p u) = ∑ k : Fin 64, a (ix2 p k) * b (ix2 p k) := by
  unfold k4_pay1
  simp only [shapeCast_self]
  refine (shapeCast_apply _ _ (ix2 p u) (ix1 p) (by
    have hu : u.val = 0 := by omega
    rw [Shape.rowMajor_val_two, Shape.rowMajor_val_one]
    show p.val = p.val * 1 + u.val
    omega)).trans ?_
  exact rowsum_apply (mulf a b) _ _ _ p

/-- The host's score at a pair: zero plus the same sum. -/
theorem spec_apply (A B : FVec Ideal Cert.ReferenceIdeal.S200000x64 .f32) (r : Fin 200000) :
    Cert.Spec.score (F := Ideal) A B (ix1 r) = ∑ k : Fin 64, A (ix2 r k) * B (ix2 r k) := by
  unfold Cert.Spec.score
  simp only [Host.reduceAdd, Ideal.hostReduceAdd_def]
  rw [Ideal.hostReduceAdd_single Cert.ReferenceIdeal.Gen.reducesTo_S200000x64_S200000_d1 (by decide)]
  refine (congrArg (· + _) (show constant (F := Ideal) Cert.ReferenceIdeal.S_ .f32 0x00000000#32 (Shape.Idx.first Cert.ReferenceIdeal.Gen.h_S_) = 0 from Ideal.ofBits_zero_f32)).trans ?_
  rw [zero_add]
  refine Finset.sum_congr rfl fun k _ => ?_
  refine (congrArg (mulf A B) (?_ : _ = ix2 r k)).trans rfl
  refine funext fun d => Fin.ext ?_
  match d with
  | ⟨0, _⟩ => rfl
  | ⟨1, _⟩ => rfl

/-- The one-column array of scores: what the region's result array ends holding. -/
def column (A B : FVec Ideal Cert.ReferenceIdeal.S200000x64 .f32) : S200000x1.Idx → Ideal .f32 :=
  fun i => Cert.Spec.score (F := Ideal) A B (ix1 (i 0))

/-- The one-column array reshaped to a vector is the vector of scores. -/
theorem column_cast (A B : FVec Ideal Cert.ReferenceIdeal.S200000x64 .f32) (h : S200000x1.ShapeCasts S200000) :
    shapeCast S200000 (column A B) h = Cert.Spec.score (F := Ideal) A B := by
  funext i
  obtain ⟨r, rfl⟩ : ∃ r : Fin 200000, i = ix1 r := ⟨i 0, eq_ix1 i⟩
  refine (shapeCast_apply (column A B) h (ix1 r) (ix2 r (0 : Fin 1)) (by
    rw [Shape.rowMajor_val_two, Shape.rowMajor_val_one]
    show r.val * 1 + 0 = r.val
    omega)).trans ?_
  rfl

/-- A block of rows `r … r + 7999` of the two arrays, multiplied and summed along the rows, is the column of scores at
    the same rows. -/
theorem entry (A B : FVec Ideal Cert.ReferenceIdeal.S200000x64 .f32)
    (a b : Vec Ideal S8000x64 .f32) (r : Nat)
    (ha : ∀ (p : Fin 8000) (k : Fin 64) (h : r + p.val < 200000), a (ix2 p k) = A (ix2 ⟨r + p.val, h⟩ k))
    (hb : ∀ (p : Fin 8000) (k : Fin 64) (h : r + p.val < 200000), b (ix2 p k) = B (ix2 ⟨r + p.val, h⟩ k))
    (j : S8000x1.Idx) (i : S200000x1.Idx) (hi0 : (i 0).val = r + (j 0).val) :
    k4_pay1 (F := Ideal) a b j = column A B i := by
  obtain ⟨p, u, rfl⟩ : ∃ (p : Fin 8000) (u : Fin 1), j = ix2 p u := ⟨j 0, j 1, eq_ix2 j⟩
  have hp : r + p.val < 200000 := by have h50 : (i 0).val < 200000 := (i 0).isLt; have e : (i 0).val = r + p.val := hi0; omega
  have hi : (i 0 : Fin 200000) = ⟨r + p.val, hp⟩ := Fin.ext hi0
  show k4_pay1 (F := Ideal) a b (ix2 p u) = Cert.Spec.score (F := Ideal) A B (ix1 (i 0 : Fin 200000))
  refine (pay_apply a b p u).trans ?_
  refine Eq.trans ?_ (congrArg (fun z : Fin 200000 => Cert.Spec.score (F := Ideal) A B (ix1 z)) hi).symm
  refine Eq.trans ?_ (spec_apply A B ⟨r + p.val, hp⟩).symm
  exact Finset.sum_congr rfl fun k _ => by rw [ha p k hp, hb p k hp]

/-! ## From the blocks to the array -/

variable (V : (c : Dev nD) → (b : Ref sig .tc) → Buf (Elt Ideal) ((c : Thread nD τ).loc b))

/-- The three windows' block numbers at a grid point: all three move with the point. -/
theorem idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the column of scores of the two arrays the region finds. -/
theorem block_eq (c : Dev nD) (t : Fin cfg4.N) :
    (dat4 V c).flushed 2 t = ((cfg4.win 2).blk t).view.read (Elt Ideal) (column (V c main_v70) (V c main_v79)) := by
  show (cfg4.win 2).cut (grid4.coords t) ((dat4 V c).after 2 t) = _
  rw [after4_2]
  unfold out4_2
  rw [View.canon_unit_zero hz]
  simp only [View.ld_unit_zero (S := S8000x64) hz]
  obtain ⟨e00, e01, e10, e11, e20, e21⟩ := idx t
  funext j
  show k4_pay1 (iblk4 V c 0 t) (iblk4 V c 1 t) j = column (V c main_v70) (V c main_v79) (((cfg4.win 2).blk t).view.emb j)
  refine entry (V c main_v70) (V c main_v79) (iblk4 V c 0 t) (iblk4 V c 1 t) (t.val * 8000) ?_ ?_ j (((cfg4.win 2).blk t).view.emb j) ?_
  · intro p k h
    show V c main_v70 (((cfg4.win 0).blk t).view.emb (ix2 p k)) = _
    refine congrArg (V c main_v70) (funext fun d => Fin.ext ?_)
    match d with
    | ⟨0, _⟩ => show win4_0.index t (0 : Fin 2) * 8000 + 1 * p.val = t.val * 8000 + p.val; rw [e00]; omega
    | ⟨1, _⟩ => show win4_0.index t (1 : Fin 2) * 64 + 1 * k.val = k.val; rw [e01]; omega
  · intro p k h
    show V c main_v79 (((cfg4.win 1).blk t).view.emb (ix2 p k)) = _
    refine congrArg (V c main_v79) (funext fun d => Fin.ext ?_)
    match d with
    | ⟨0, _⟩ => show win4_1.index t (0 : Fin 2) * 8000 + 1 * p.val = t.val * 8000 + p.val; rw [e10]; omega
    | ⟨1, _⟩ => show win4_1.index t (1 : Fin 2) * 64 + 1 * k.val = k.val; rw [e11]; omega
  · show win4_2.index t (0 : Fin 2) * 8000 + 1 * (j 0).val = t.val * 8000 + (j 0).val; rw [e20]; omega

/-- An index of the result array is in point `t`'s block iff each coordinate is in the block's range on its axis. -/
theorem mem_blk (t : Fin cfg4.N) (i : S200000x1.Idx) :
    i ∈ ((cfg4.win 2).blk t).view.set ↔ ∀ a : Fin 2, win4_2.index t a * S8000x1.size a ≤ (i a).val ∧ (i a).val < win4_2.index t a * S8000x1.size a + S8000x1.size a := by
  show i ∈ ((View.whole main_v80).slice (win4_2.rect t)).set ↔ _
  rw [View.set_slice_whole, Rect.mem_set_unit]
  exact Iff.rfl

/-- Every row is in the block of the point numbered by the row's quotient by 8000. -/
theorem cover (i : S200000x1.Idx) : ∃ t : Fin cfg4.N, (cfg4.win 2).flush t = true ∧ i ∈ ((cfg4.win 2).blk t).view.set := by
  have hi0 : (i 0).val < 200000 := (i 0).isLt
  have hi1 : (i 1).val < 1 := (i 1).isLt
  obtain ⟨t, ht⟩ : ∃ t : Fin cfg4.N, t.val = (i 0).val / 8000 := ⟨⟨(i 0).val / 8000, by rw [show cfg4.N = 25 from N_4]; omega⟩, rfl⟩
  obtain ⟨-, -, -, -, e20, e21⟩ := idx t
  refine ⟨t, flush4_2 t, ?_⟩
  rw [mem_blk]
  intro a
  match a with
  | ⟨0, _⟩ => show win4_2.index t (0 : Fin 2) * 8000 ≤ (i 0).val ∧ (i 0).val < win4_2.index t (0 : Fin 2) * 8000 + 8000; rw [e20]; omega
  | ⟨1, _⟩ => show win4_2.index t (1 : Fin 2) * 1 ≤ (i 1).val ∧ (i 1).val < win4_2.index t (1 : Fin 2) * 1 + 1; rw [e21]; omega

/-- The result array after the region: the column of scores of the two arrays the region finds. -/
theorem final (c : Dev nD) : (dat4 V c).arrAt 2 cfg4.N = column (V c main_v70) (V c main_v79) :=
  (dat4 V c).arrAt_eq_of_cover 2 (column (V c main_v70) (V c main_v79)) (fun t _ => block_eq V c t) cover

end Cert.KernelIdeal.Decode

end
-- ==== Proof.Stages.lean ====
/-
  The idealized kernel's buffers at each segment boundary, as functions of the arguments. The kernel's program is a
  chain of host stretches and TensorCore regions; the generated frame module names the buffer contents at every
  boundary (the fold of the host operations and of the regions' write-backs from the launch memory). Here each
  buffer a later stage reads is identified, boundary by boundary, with the specification's function of the seven
  argument arrays: the edge lists and weights after the first host stretch, x · W₁ after the first region, its
  aggregate after the next stretch, and so on to the vector of scores in the result buffer.
  A host stretch applies to its operands the very operations the specification's stage is made of, so its step is a
  rewriting of the fold followed by a comparison of two identical composites; a region's step is the block-by-block
  value of its kernel (Lin1, Bias1, Lin2, Bias2, Decode).
-/
import proofs.«135281_j51960514347273_1_alg».proof.Proof.Gen.KernelIdeal.Frame
import proofs.«135281_j51960514347273_1_alg».proof.Proof.Spec
import proofs.«135281_j51960514347273_1_alg».proof.Proof.Lin1
import proofs.«135281_j51960514347273_1_alg».proof.Proof.Lin2
import proofs.«135281_j51960514347273_1_alg».proof.Proof.Bias1
import proofs.«135281_j51960514347273_1_alg».proof.Proof.Bias2
import proofs.«135281_j51960514347273_1_alg».proof.Proof.Decode
import Idealize.ShloMosaic.Lib.StableHlo.Run
import Idealize.ShloMosaic.Lib.ValueLayout

set_option maxRecDepth 16384

noncomputable section

namespace Cert.KernelIdeal.Stages

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- A buffer that no operation of a host stretch writes holds after the stretch what it held before. -/
macro "kept_by_host" : tactic => `(tactic| exact StableHlo.after_of_forall_not_mem _ _ (List.forall_iff_forall_mem.mp (by
  simp only [hostOps0, hostOps0_1, hostOps0_2, hostOps1, hostOps3, hostOps4, hostOps5, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide))))

/-! ## Buffers that a stretch of the program leaves alone

  An argument array is written by no host operation and by no region, and the edge lists and edge weights computed in
  the first host stretch are written by nothing after it: at a later boundary each still holds what it held before. -/

/-- The feature matrix is as launched when the first region is entered. -/
theorem arg0_W3 : W3 m ρ c (Proc.devRef .tc main_arg0) = m ((c : Thread nD τ).loc main_arg0) :=
  calc W3 m ρ c (Proc.devRef .tc main_arg0)
    _ = W2 m ρ c (Proc.devRef .tc main_arg0) := by kept_by_host
    _ = W1 m ρ c (Proc.devRef .tc main_arg0) := by kept_by_host
    _ = W0 m ρ c (Proc.devRef .tc main_arg0) := by kept_by_host
    _ = m ((c : Thread nD τ).loc main_arg0) := rfl
/-- The first weight matrix is as launched when the first region is entered. -/
theorem arg3_W3 : W3 m ρ c (Proc.devRef .tc main_arg3) = m ((c : Thread nD τ).loc main_arg3) :=
  calc W3 m ρ c (Proc.devRef .tc main_arg3)
    _ = W2 m ρ c (Proc.devRef .tc main_arg3) := by kept_by_host
    _ = W1 m ρ c (Proc.devRef .tc main_arg3) := by kept_by_host
    _ = W0 m ρ c (Proc.devRef .tc main_arg3) := by kept_by_host
    _ = m ((c : Thread nD τ).loc main_arg3) := rfl
/-- The first bias is as launched after the first region. -/
theorem arg4_W4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by kept_by_host
    _ = W1 m ρ c (Proc.devRef .tc main_arg4) := by kept_by_host
    _ = W0 m ρ c (Proc.devRef .tc main_arg4) := by kept_by_host
    _ = m ((c : Thread nD τ).loc main_arg4) := rfl
/-- The second weight matrix is as launched when the third region is entered. -/
theorem arg5_W6 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by kept_by_host
    _ = W3 m ρ c (Proc.devRef .tc main_arg5) := W4_of_ne m ρ c main_arg5 (by decide)
    _ = W2 m ρ c (Proc.devRef .tc main_arg5) := by kept_by_host
    _ = W1 m ρ c (Proc.devRef .tc main_arg5) := by kept_by_host
    _ = W0 m ρ c (Proc.devRef .tc main_arg5) := by kept_by_host
    _ = m ((c : Thread nD τ).loc main_arg5) := rfl
/-- The second bias is as launched after the third region. -/
theorem arg6_W7 : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by kept_by_host
    _ = W3 m ρ c (Proc.devRef .tc main_arg6) := W4_of_ne m ρ c main_arg6 (by decide)
    _ = W2 m ρ c (Proc.devRef .tc main_arg6) := by kept_by_host
    _ = W1 m ρ c (Proc.devRef .tc main_arg6) := by kept_by_host
    _ = W0 m ρ c (Proc.devRef .tc main_arg6) := by kept_by_host
    _ = m ((c : Thread nD τ).loc main_arg6) := rfl
/-- The scored pairs are as launched after the fourth region. -/
theorem arg2_W9 : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := by kept_by_host
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := by kept_by_host
    _ = W3 m ρ c (Proc.devRef .tc main_arg2) := W4_of_ne m ρ c main_arg2 (by decide)
    _ = W2 m ρ c (Proc.devRef .tc main_arg2) := by kept_by_host
    _ = W1 m ρ c (Proc.devRef .tc main_arg2) := by kept_by_host
    _ = W0 m ρ c (Proc.devRef .tc main_arg2) := by kept_by_host
    _ = m ((c : Thread nD τ).loc main_arg2) := rfl
/-- The edge sources are untouched by the first region. -/
theorem src_W4 : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)
/-- The edge targets are untouched by the first region. -/
theorem dst_W4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)
/-- The edge weights are untouched by the first region. -/
theorem norm_W4 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)
/-- The edge sources are untouched up to the third region's exit. -/
theorem src_W7 : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := by kept_by_host
    _ = W3 m ρ c (Proc.devRef .tc main_v5) := W4_of_ne m ρ c main_v5 (by decide)
/-- The edge targets are untouched up to the third region's exit. -/
theorem dst_W7 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by kept_by_host
    _ = W3 m ρ c (Proc.devRef .tc main_v6) := W4_of_ne m ρ c main_v6 (by decide)
/-- The edge weights are untouched up to the third region's exit. -/
theorem norm_W7 : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by kept_by_host
    _ = W3 m ρ c (Proc.devRef .tc main_v29) := W4_of_ne m ρ c main_v29 (by decide)

/-! ## The first host stretch: the edge lists with self loops, and the edge weights -/

/-- The sources of all edges, self loops included. -/
theorem src_W2 : W2 m ρ c (Proc.devRef .tc main_v5) = Cert.Spec.srcAll (F := Ideal) (m ((c : Thread nD τ).loc main_arg1)) := by
  show StableHlo.after hostOps0_1 (W1 m ρ c) (Proc.devRef .tc main_v5) = _
  after_results
  rfl

/-- The targets of all edges, self loops included. -/
theorem dst_W2 : W2 m ρ c (Proc.devRef .tc main_v6) = Cert.Spec.dstAll (F := Ideal) (m ((c : Thread nD τ).loc main_arg1)) := by
  show StableHlo.after hostOps0_1 (W1 m ρ c) (Proc.devRef .tc main_v6) = _
  after_results
  rfl

/-- Where a node's in-degree (self loop included) is positive: the mask the first host stretch leaves. -/
theorem mask_W1 : W1 m ρ c (Proc.devRef .tc main_v12) = cmpf (F := Ideal) .ogt (Cert.Spec.deg (F := Ideal) (m ((c : Thread nD τ).loc main_arg1)))
      (broadcastInDim Cert.ReferenceIdeal.S50000 ![] Cert.ReferenceIdeal.Gen.bcast_S_S50000 (constant Cert.ReferenceIdeal.S_ .f32 0x00000000#32)) := by
  show StableHlo.after hostOps0 (W0 m ρ c) (Proc.devRef .tc main_v12) = _
  after_results
  rfl

/-- The in-degrees to the power -1/2, before the mask is applied. -/
theorem rsqrt_W1 : W1 m ρ c (Proc.devRef .tc main_v13) = (Host.rsqrt (Cert.Spec.deg (F := Ideal) (m ((c : Thread nD τ).loc main_arg1))) : FVec Ideal Cert.ReferenceIdeal.S50000 .f32) := by
  show StableHlo.after hostOps0 (W0 m ρ c) (Proc.devRef .tc main_v13) = _
  after_results
  rfl

/-- The zero that stands where the degree is not positive. -/
theorem zero_W1 : W1 m ρ c (Proc.devRef .tc main_cst_2) = constant (F := Ideal) Cert.ReferenceIdeal.S_ .f32 0x00000000#32 := by
  show StableHlo.after hostOps0 (W0 m ρ c) (Proc.devRef .tc main_cst_2) = _
  after_results

/-- Every node's degree to the power -1/2 (zero where the degree is not positive). -/
theorem dinv_W2 : W2 m ρ c (Proc.devRef .tc main_v14) = Cert.Spec.dinv (F := Ideal) (m ((c : Thread nD τ).loc main_arg1)) := by
  have e12 := mask_W1 m ρ c
  have e13 := rsqrt_W1 m ρ c
  have ec := zero_W1 m ρ c
  show StableHlo.after hostOps0_1 (W1 m ρ c) (Proc.devRef .tc main_v14) = _
  generalize W1 m ρ c = W at e12 e13 ec ⊢
  after_results
  show select (W (Proc.devRef .tc main_v12)) (W (Proc.devRef .tc main_v13)) (broadcastInDim S50000 ![] bcast_S_S50000 (id (W (Proc.devRef .tc main_cst_2)))) = _
  rw [e12, e13, ec]
  rfl

/-- The edge sources are still there when the first region is entered. -/
theorem src_W3 : W3 m ρ c (Proc.devRef .tc main_v5) = Cert.Spec.srcAll (F := Ideal) (m ((c : Thread nD τ).loc main_arg1)) :=
  (by kept_by_host : W3 m ρ c (Proc.devRef .tc main_v5) = W2 m ρ c (Proc.devRef .tc main_v5)).trans (src_W2 m ρ c)

/-- The edge targets are still there when the first region is entered. -/
theorem dst_W3 : W3 m ρ c (Proc.devRef .tc main_v6) = Cert.Spec.dstAll (F := Ideal) (m ((c : Thread nD τ).loc main_arg1)) :=
  (by kept_by_host : W3 m ρ c (Proc.devRef .tc main_v6) = W2 m ρ c (Proc.devRef .tc main_v6)).trans (dst_W2 m ρ c)

set_option maxHeartbeats 1000000 in
/-- The weight of every edge. -/
theorem norm_W3 : W3 m ρ c (Proc.devRef .tc main_v29) = Cert.Spec.norm (F := Ideal) (m ((c : Thread nD τ).loc main_arg1)) := by
  have e14 := dinv_W2 m ρ c
  have e5 := src_W2 m ρ c
  have e6 := dst_W2 m ρ c
  show StableHlo.after hostOps0_2 (W2 m ρ c) (Proc.devRef .tc main_v29) = _
  generalize W2 m ρ c = W at e14 e5 e6 ⊢
  after_results
  rw [e14, e5, e6]
  rfl

/-! ## The first layer -/

/-- After the first region: x · W₁. -/
theorem lin1_W4 : W4 m ρ c (Proc.devRef .tc main_v30) = Cert.Spec.lin1 (F := Ideal) (m ((c : Thread nD τ).loc main_arg0)) (m ((c : Thread nD τ).loc main_arg3)) := by
  refine (W4_arr m ρ c 2).trans ?_
  refine (Cert.KernelIdeal.Lin1.final (V3 m ρ) c).trans ?_
  show Cert.Spec.lin1 (F := Ideal) (W3 m ρ c (Proc.devRef .tc main_arg0)) (W3 m ρ c (Proc.devRef .tc main_arg3)) = _
  rw [arg0_W3, arg3_W3]

set_option maxHeartbeats 1000000 in
/-- After the next host stretch: the aggregate of x · W₁ over the edges. -/
theorem agg1_W5 : W5 m ρ c (Proc.devRef .tc main_v43) = Cert.Spec.agg128 (F := Ideal) (Cert.Spec.lin1 (F := Ideal) (m ((c : Thread nD τ).loc main_arg0)) (m ((c : Thread nD τ).loc main_arg3))) (m ((c : Thread nD τ).loc main_arg1)) := by
  have e30 := lin1_W4 m ρ c
  have e5 := (src_W4 m ρ c).trans (src_W3 m ρ c)
  have e6 := (dst_W4 m ρ c).trans (dst_W3 m ρ c)
  have e29 := (norm_W4 m ρ c).trans (norm_W3 m ρ c)
  show StableHlo.after hostOps1 (W4 m ρ c) (Proc.devRef .tc main_v43) = _
  generalize W4 m ρ c = W at e30 e5 e6 e29 ⊢
  after_results
  rw [e30, e5, e6, e29]
  rfl

/-- … and the first bias as one row. -/
theorem bias1_W5 (q : Fin 128) : (W5 m ρ c (Proc.devRef .tc main_v44) : S1x128.Idx → Ideal .f32) (ix2 (0 : Fin 1) q) = (m ((c : Thread nD τ).loc main_arg4)) (ix1 q) := by
  have e := arg4_W4 m ρ c
  show (StableHlo.after hostOps1 (W4 m ρ c) (Proc.devRef .tc main_v44) : S1x128.Idx → Ideal .f32) (ix2 (0 : Fin 1) q) = _
  generalize W4 m ρ c = W at e ⊢
  after_results
  rw [e]
  exact shapeCast_a_1a_apply _ _ (0 : Fin 1) q

/-- After the second region: the hidden features. -/
theorem hid_W6 : W6 m ρ c (Proc.devRef .tc main_v45) = Cert.Spec.hidden (F := Ideal) (Cert.Spec.agg128 (F := Ideal) (Cert.Spec.lin1 (F := Ideal) (m ((c : Thread nD τ).loc main_arg0)) (m ((c : Thread nD τ).loc main_arg3))) (m ((c : Thread nD τ).loc main_arg1))) (m ((c : Thread nD τ).loc main_arg4)) := by
  refine (W6_arr m ρ c 2).trans ?_
  refine (Cert.KernelIdeal.Bias1.final (V5 m ρ) c (m ((c : Thread nD τ).loc main_arg4)) (fun q => bias1_W5 m ρ c q)).trans ?_
  show Cert.Spec.hidden (F := Ideal) (W5 m ρ c (Proc.devRef .tc main_v43)) (m ((c : Thread nD τ).loc main_arg4)) = _
  rw [agg1_W5]

/-! ## The second layer -/

/-- After the third region: hidden · W₂. -/
theorem lin2_W7 : W7 m ρ c (Proc.devRef .tc main_v46) = Cert.Spec.lin2 (F := Ideal) (Cert.Spec.hidden (F := Ideal) (Cert.Spec.agg128 (F := Ideal) (Cert.Spec.lin1 (F := Ideal) (m ((c : Thread nD τ).loc main_arg0)) (m ((c : Thread nD τ).loc main_arg3))) (m ((c : Thread nD τ).loc main_arg1))) (m ((c : Thread nD τ).loc main_arg4))) (m ((c : Thread nD τ).loc main_arg5)) := by
  refine (W7_arr m ρ c 2).trans ?_
  refine (Cert.KernelIdeal.Lin2.final (V6 m ρ) c).trans ?_
  show Cert.Spec.lin2 (F := Ideal) (W6 m ρ c (Proc.devRef .tc main_v45)) (W6 m ρ c (Proc.devRef .tc main_arg5)) = _
  rw [hid_W6, arg5_W6]

set_option maxHeartbeats 1000000 in
/-- After the next host stretch: its aggregate over the edges. -/
theorem agg2_W8 : W8 m ρ c (Proc.devRef .tc main_v59) = Cert.Spec.agg64 (F := Ideal) (Cert.Spec.lin2 (F := Ideal) (Cert.Spec.hidden (F := Ideal) (Cert.Spec.agg128 (F := Ideal) (Cert.Spec.lin1 (F := Ideal) (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1)) := by
  have e46 := lin2_W7 m ρ c
  have e5 := (src_W7 m ρ c).trans (src_W3 m ρ c)
  have e6 := (dst_W7 m ρ c).trans (dst_W3 m ρ c)
  have e29 := (norm_W7 m ρ c).trans (norm_W3 m ρ c)
  show StableHlo.after hostOps3 (W7 m ρ c) (Proc.devRef .tc main_v59) = _
  generalize W7 m ρ c = W at e46 e5 e6 e29 ⊢
  after_results
  rw [e46, e5, e6, e29]
  rfl

/-- … and the second bias as one row. -/
theorem bias2_W8 (q : Fin 64) : (W8 m ρ c (Proc.devRef .tc main_v60) : S1x64.Idx → Ideal .f32) (ix2 (0 : Fin 1) q) = (m ((c : Thread nD τ).loc main_arg6)) (ix1 q) := by
  have e := arg6_W7 m ρ c
  show (StableHlo.after hostOps3 (W7 m ρ c) (Proc.devRef .tc main_v60) : S1x64.Idx → Ideal .f32) (ix2 (0 : Fin 1) q) = _
  generalize W7 m ρ c = W at e ⊢
  after_results
  rw [e]
  exact shapeCast_a_1a_apply _ _ (0 : Fin 1) q

/-- After the fourth region: the node embeddings. -/
theorem nodes_W9 : W9 m ρ c (Proc.devRef .tc main_v61) = Cert.Spec.nodes (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W9_arr m ρ c 2).trans ?_
  refine (Cert.KernelIdeal.Bias2.final (V8 m ρ) c (m ((c : Thread nD τ).loc main_arg6)) (fun q => bias2_W8 m ρ c q)).trans ?_
  show Cert.Spec.embed (F := Ideal) (W8 m ρ c (Proc.devRef .tc main_v59)) (m ((c : Thread nD τ).loc main_arg6)) = _
  rw [agg2_W8]
  rfl

/-! ## The scores -/

set_option maxHeartbeats 1000000 in
/-- After the last long host stretch: the embeddings of the pairs' first nodes. -/
theorem first_W10 : W10 m ρ c (Proc.devRef .tc main_v70) = Cert.Spec.pick0 (F := Ideal) (Cert.Spec.nodes (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)) := by
  have e61 := nodes_W9 m ρ c
  have e2 := arg2_W9 m ρ c
  show StableHlo.after hostOps4 (W9 m ρ c) (Proc.devRef .tc main_v70) = _
  generalize W9 m ρ c = W at e61 e2 ⊢
  after_results
  rw [e61, e2]
  rfl

set_option maxHeartbeats 1000000 in
/-- … and of their second nodes. -/
theorem second_W10 : W10 m ρ c (Proc.devRef .tc main_v79) = Cert.Spec.pick1 (F := Ideal) (Cert.Spec.nodes (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)) := by
  have e61 := nodes_W9 m ρ c
  have e2 := arg2_W9 m ρ c
  show StableHlo.after hostOps4 (W9 m ρ c) (Proc.devRef .tc main_v79) = _
  generalize W9 m ρ c = W at e61 e2 ⊢
  after_results
  rw [e61, e2]
  rfl

/-- After the fifth region: the scores as one column. -/
theorem column_W11 : W11 m ρ c (Proc.devRef .tc main_v80) = Cert.KernelIdeal.Decode.column
      (Cert.Spec.pick0 (F := Ideal) (Cert.Spec.nodes (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)))
      (Cert.Spec.pick1 (F := Ideal) (Cert.Spec.nodes (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2))) := by
  refine (W11_arr m ρ c 2).trans ?_
  refine (Cert.KernelIdeal.Decode.final (V10 m ρ) c).trans ?_
  show Cert.KernelIdeal.Decode.column (W10 m ρ c (Proc.devRef .tc main_v70)) (W10 m ρ c (Proc.devRef .tc main_v79)) = _
  rw [first_W10, second_W10]

/-- At the return: the result buffer holds the specification's function of the seven arguments. -/
theorem out_W12 : W12 m ρ c (Proc.devRef .tc main_v81) = Cert.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e := column_W11 m ρ c
  show StableHlo.after hostOps5 (W11 m ρ c) (Proc.devRef .tc main_v81) = _
  generalize W11 m ρ c = W at e ⊢
  after_results
  rw [e]
  exact Cert.KernelIdeal.Decode.column_cast _ _ _

end Cert.KernelIdeal.Stages

end
-- ==== Proof.lean ====
/-
  A two-layer graph convolution with an edge score, computed by a kernel program and by a reference program, is one
  function of the seven arguments at exact arithmetic.

  Both programs compute, from node features x, an edge list, a list of node pairs to score, and two layers' weights
  and biases: the edges' symmetric normalisation from the in-degrees (self loops added), the first layer
  max (agg (x · W₁) + b₁, 0), the second layer z = agg (h · W₂) + b₂, and for every scored pair the inner product of
  its two rows of z — where agg sums, onto each edge's target, the source's row scaled by the edge's weight. The
  reference does all of it with host operations. The kernel program does the edge stages with the same host
  operations, and the dense stages on the TensorCore: the two matrix products (operands rounded to bf16, the identity at
  exact arithmetic) and the two bias additions in ten blocks of 5000 rows each, the row sums of the scores in
  twenty-five blocks of 8000 rows. Block by block these are the same sums and the same entrywise expressions as the
  host's whole-array operations; no law of arithmetic beyond that is used, so the finiteness of the inputs is never
  opened.

  The pieces: Spec.lean states the common function stage by stage; RefRun.lean and RefSpec.lean read the reference's run
  as that function; Lin1, Bias1, Lin2, Bias2 and Decode.lean give each region's result array as its stage of the arrays
  the region finds; Stages.lean follows the kernel program's buffers from boundary to boundary; KRun.lean is the kernel
  program's run with its result buffer named. The three frames are the generated frame of each kernel program and the
  reference's run with the result dropped; nothing was rewritten by the idealization, so the fourth claim is trivial.
-/
import proofs.«135281_j51960514347273_1_alg».proof.Defs
import proofs.«135281_j51960514347273_1_alg».proof.Proof.Gen.Kernel
import proofs.«135281_j51960514347273_1_alg».proof.Proof.Gen.Kernel.Skeleton
import proofs.«135281_j51960514347273_1_alg».proof.Proof.Gen.Kernel.Launch
import proofs.«135281_j51960514347273_1_alg».proof.Proof.Gen.Kernel.Points
import proofs.«135281_j51960514347273_1_alg».proof.Proof.Gen.Kernel.Frame
import proofs.«135281_j51960514347273_1_alg».proof.Proof.Gen.KernelIdeal
import proofs.«135281_j51960514347273_1_alg».proof.Proof.Gen.KernelIdeal.Skeleton
import proofs.«135281_j51960514347273_1_alg».proof.Proof.Gen.KernelIdeal.Launch
import proofs.«135281_j51960514347273_1_alg».proof.Proof.Gen.KernelIdeal.Points
import proofs.«135281_j51960514347273_1_alg».proof.Proof.Gen.KernelIdeal.Frame
import proofs.«135281_j51960514347273_1_alg».proof.Proof.Gen.ReferenceIdeal
import proofs.«135281_j51960514347273_1_alg».proof.Proof.Gen.Pre_finite_inputs
import proofs.«135281_j51960514347273_1_alg».proof.Proof.RefRun
import proofs.«135281_j51960514347273_1_alg».proof.Proof.RefSpec
import proofs.«135281_j51960514347273_1_alg».proof.Proof.KRun
import proofs.«135281_j51960514347273_1_alg».proof.Proof.Stages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result at the specification's function of the (agreeing) arguments. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Stages.out_W12 m ρ c), (h c).2⟩)
      (Cert.KernelIdeal.Named.run m ρ)
  · refine (θ_run Cert.ReferenceIdeal.defs _ _).mono (fun r h c => ⟨(h c).1.trans ?_, (h c).2⟩)
      (Cert.ReferenceIdeal.ValueP.run (F := Ideal) m' ρ')
    rw [Cert.RefSpec.res_eq]
    obtain ⟨a0, a1, a2, a3, a4, a5, a6⟩ := hagree c
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
